-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256x256 : Shape := ⟨2, ![256, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S8x2048x256 .f32) (main_arg1 : FVec F S256x256 .f32) (main_arg2 : FVec F S256x256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S8x2048x256 : Shape := ⟨3, ![8, 2048, 256]⟩
abbrev S256x256 : Shape := ⟨2, ![256, 256]⟩
abbrev S1x2048x256 : Shape := ⟨3, ![1, 2048, 256]⟩
abbrev S2048x256 : Shape := ⟨2, ![2048, 256]⟩
abbrev S8x2048x2048 : Shape := ⟨3, ![8, 2048, 2048]⟩
abbrev S1x1024x256 : Shape := ⟨3, ![1, 1024, 256]⟩
abbrev S1x1024x1024 : Shape := ⟨3, ![1, 1024, 1024]⟩
abbrev S1024x256 : Shape := ⟨2, ![1024, 256]⟩
abbrev S1024x1024 : Shape := ⟨2, ![1024, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256x256, .f32⟩
  | .hbm, ⟨3, _⟩ => ⟨S8x2048x256, .bf16⟩
  | .hbm, ⟨4, _⟩ => ⟨S8x2048x256, .bf16⟩
  | .hbm, ⟨5, _⟩ => ⟨S8x2048x2048, .f32⟩
  | .local _ .vmem, ⟨0, _⟩ => ⟨S1x2048x256, .f32⟩
  | .local _ .vmem, ⟨1, _⟩ => ⟨S1x2048x256, .f32⟩
  | .local _ .vmem, ⟨2, _⟩ => ⟨S256x256, .f32⟩
  | .local _ .vmem, ⟨3, _⟩ => ⟨S256x256, .f32⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x1024, .f32⟩
  | .local _ .vmem, ⟨13, _⟩ => ⟨S1x1024x1024, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![8, 2, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S2048x256_S1x2048x256 : S2048x256.ShapeCasts S1x2048x256
  packedbf16_S1x2048x256_S1x2048x256_0_0_0 : (Rect.unit (s := S1x2048x256) ![0, 0, 0] S1x2048x256.size inb_S1x2048x256_S1x2048x256_0_0_0).PackedRows (EltTy.packing .bf16)
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  iota_S1024x1024_d0_w32 : S1024x1024.Iotas .tc 32 [0]
  iota_S1024x1024_d1_w32 : S1024x1024.Iotas .tc 32 [1]
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S2048x256_S256x256_S2048x256_1_1_0_0_n_n_wf : DotDims.WF S2048x256 S256x256 S2048x256 [1] [1] [0] [0] [] []
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S8x2048x256.size a
  hwx0_3 : ∀ i : grid0.Coords, EltTy.bits .bf16 = 32 ∨ (Rect.block (s := S8x2048x256) S1x2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x256.size a ≤ S8x2048x256.size a
  hwx0_4 : ∀ i : grid0.Coords, EltTy.bits .bf16 = 32 ∨ (Rect.block (s := S8x2048x256) S1x2048x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S8x2048x256.size a
  hwx1_0 : ∀ i : grid1.Coords, EltTy.bits .bf16 = 32 ∨ (Rect.block (s := S8x2048x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x256.size a ≤ S8x2048x256.size a
  hwx1_1 : ∀ i : grid1.Coords, EltTy.bits .bf16 = 32 ∨ (Rect.block (s := S8x2048x256) S1x1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S8x2048x2048.size a
  hwx1_2 : ∀ i : grid1.Coords, EltTy.bits .f32 = 32 ∨ (Rect.block (s := S8x2048x2048) S1x1024x1024.size (cc1_transform_2 i) (hinb1_2 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x2048x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x2048x256 : Shape := ⟨3, ![8, 2048, 256]⟩
abbrev S256x256 : Shape := ⟨2, ![256, 256]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S8x2048x2048 : Shape := ⟨3, ![8, 2048, 2048]⟩
abbrev S1x2048x2048 : Shape := ⟨3, ![1, 2048, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256x256, .f32⟩
  | .hbm, ⟨3, _⟩ => ⟨S8x2048x256, .f32⟩
  | .hbm, ⟨4, _⟩ => ⟨S8x2048x256, .f32⟩
  | .hbm, ⟨5, _⟩ => ⟨S2048, .i32⟩
  | .hbm, ⟨6, _⟩ => ⟨S2048x1, .i32⟩
  | .hbm, ⟨7, _⟩ => ⟨S2048, .i32⟩
  | .hbm, ⟨8, _⟩ => ⟨S1x2048, .i32⟩
  | .hbm, ⟨9, _⟩ => ⟨S2048x2048, .i32⟩
  | .hbm, ⟨10, _⟩ => ⟨S2048x2048, .i32⟩
  | .hbm, ⟨11, _⟩ => ⟨S2048x2048, .i1⟩
  | .hbm, ⟨12, _⟩ => ⟨S_, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S8x2048x2048, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S1x2048x2048, .f32⟩
  | .hbm, ⟨22, _⟩ => ⟨S8x2048x2048, .f32⟩
  | .hbm, ⟨23, _⟩ => ⟨S8x2048x2048, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S_S8x2048x2048 : S_.BroadcastsInDim S8x2048x2048 (![] : Fin 0 → Fin S8x2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  dot_S8x2048x256_S256x256_S8x2048x256_2_1_01_0_n_n_wf : DotDims.WF S8x2048x256 S256x256 S8x2048x256 [2] [1] [0, 1] [0] [] []
  dot_S8x2048x256_S8x2048x256_S8x2048x2048_2_2_1_1_0_0_wf : DotDims.WF S8x2048x256 S8x2048x256 S8x2048x2048 [2] [2] [1] [1] [0] [0]

variable [Facts₀]

def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf

class Facts : Prop extends Facts₀ where

variable [Facts]
-- ==== Proof.Spec.lean ====
/-
  The mathematics of masked attention scores, with no program in sight.

  From an input x : [8, 2048, 256] and two weight matrices w : [256, 256] (rows indexed by the output feature), the
  projection is  proj x w (b, t, o) = Σ_i x(b, t, i) · w(o, i).  The scores are
      scores x wq wk (b, r, c) = (Σ_o proj x wq (b, r, o) · proj x wk (b, c, o)) · s + mask(r, c)
  where s is the float 0x3D800000 (one sixteenth) and mask(r, c) is the float 0xCE6E6B28 (minus ten to the ninth)
  when c < r as 32-bit signed integers and the zero float otherwise. Everything is over the extended reals; the
  float words are kept as words, since both programs spell the same ones.
-/
import Idealize.ShloMosaic.PureOps.Ideal
import Idealize.ShloMosaic.PureOps.Ideal.Laws
import Idealize.ShloMosaic.Lib.ValueIdx

noncomputable section

namespace Cert.Scores

open Idealize.ShloMosaic Idealize.ShloMosaic.ValueIdx

/-- The input's shape, a weight matrix's, and the result's. -/
abbrev SX : Shape := ⟨3, ![8, 2048, 256]⟩
abbrev SW : Shape := ⟨2, ![256, 256]⟩
abbrev SE : Shape := ⟨3, ![8, 2048, 2048]⟩

/-- One entry of a projection: row `t` of batch `b` of the input against row `o` of the weights. -/
def projAt (x : SX.Idx → EReal) (w : SW.Idx → EReal) (b : Fin 8) (t : Fin 2048) (o : Fin 256) : EReal :=
  ∑ i : Fin 256, x (ix3 b t i) * w (ix2 o i)

/-- The projection as an array of the input's shape. -/
def proj (x : SX.Idx → EReal) (w : SW.Idx → EReal) : SX.Idx → EReal :=
  fun j => projAt x w ⟨(j 0).val, (j 0).isLt⟩ ⟨(j 1).val, (j 1).isLt⟩ ⟨(j 2).val, (j 2).isLt⟩

/-- The mask at row `r`, column `c`: the large negative float strictly below the diagonal, zero on and above it. The
    comparison is the signed one on 32-bit words, as both programs make it. -/
def maskAt (r c : Nat) : EReal :=
  Scalar.select (IntOp.cmpi .slt (BitVec.ofNat 32 c) (BitVec.ofNat 32 r))
    (Ideal.ofBits .f32 0xCE6E6B28#32) (Ideal.ofBits .f32 0x00000000#32)

/-- One score from two projected arrays `q`, `k`: row `r` of `q` against row `c` of `k` in batch `b`, scaled, plus the mask. -/
def scoreAt (q k : SX.Idx → EReal) (b : Fin 8) (r c : Fin 2048) : EReal :=
  (∑ o : Fin 256, q (ix3 b r o) * k (ix3 b c o)) * Ideal.ofBits .f32 0x3D800000#32 + maskAt r.val c.val

/-- The scores of two projected arrays, as an array. -/
def scoresOf (q k : SX.Idx → EReal) : SE.Idx → EReal :=
  fun j => scoreAt q k ⟨(j 0).val, (j 0).isLt⟩ ⟨(j 1).val, (j 1).isLt⟩ ⟨(j 2).val, (j 2).isLt⟩

/-- The whole computation: the scores of the two projections of `x`. -/
def scores (x : SX.Idx → EReal) (wq wk : SW.Idx → EReal) : SE.Idx → EReal :=
  scoresOf (proj x wq) (proj x wk)

/-- A projection read at explicit coordinates. -/
theorem proj_ix3 (x : SX.Idx → EReal) (w : SW.Idx → EReal) (b : Fin 8) (t : Fin 2048) (o : Fin 256) :
    proj x w (ix3 b t o) = projAt x w b t o := rfl

end Cert.Scores

end
-- ==== Proof.RefScores.lean ====
/-
  The reference computes the same function. Its operations, read one at a time at an index: two contractions of the input's last
  axis with a weight matrix's last axis, a contraction of the two results' last axes batch by batch, a multiplication by the
  broadcast scale, and the addition of the mask (a signed comparison of the column counter with the row counter, selecting
  between the two broadcast constants) broadcast over the batch. At index (b, r, c) that is the score of the two projections.
-/
import proofs.«123300_j89309549953157_1_alg».proof.Proof.Gen.ReferenceIdeal.Read
import proofs.«123300_j89309549953157_1_alg».proof.Proof.Spec

noncomputable section
namespace Cert.ReferenceIdeal.RefValue
open Cert.ReferenceIdeal Cert.ReferenceIdeal.Read Idealize.ShloMosaic Idealize.ShloMosaic.ValueIdx Cert.Scores

/-- The reference's last stage is `scores` of the three arguments: the composed operand indices of its three contractions are
    (b, r, i), (o, i), (b, c, i), (o, i), and the mask's counters are the column and the row. -/
theorem ref_is_scores (x0 : (⟨S8x2048x256, .f32⟩ : BufTy).Contents (Elt Ideal)) (x1 x2 : (⟨S256x256, .f32⟩ : BufTy).Contents (Elt Ideal)) :
    val_main_v15 (F := Ideal) x0 x1 x2 = scores x0 x1 x2 := by
  funext i
  have eq0 : ∀ (k k' : Fin 256), lidx_main_v0 (lidx_main_v10 i k) k'
      = (ix3 ⟨(i 0).val, (i 0).isLt⟩ ⟨(i 1).val, (i 1).isLt⟩ k' : S8x2048x256.Idx) := fun k k' =>
    funext fun a => by match a with | ⟨0, _⟩ => rfl | ⟨1, _⟩ => rfl | ⟨2, _⟩ => rfl
  have ew0 : ∀ (k k' : Fin 256), ridx_main_v0 (lidx_main_v10 i k) k' = (ix2 k k' : S256x256.Idx) := fun k k' =>
    funext fun a => by match a with | ⟨0, _⟩ => rfl | ⟨1, _⟩ => rfl
  have eq1 : ∀ (k k' : Fin 256), lidx_main_v1 (ridx_main_v10 i k) k'
      = (ix3 ⟨(i 0).val, (i 0).isLt⟩ ⟨(i 2).val, (i 2).isLt⟩ k' : S8x2048x256.Idx) := fun k k' =>
    funext fun a => by match a with | ⟨0, _⟩ => rfl | ⟨1, _⟩ => rfl | ⟨2, _⟩ => rfl
  have ew1 : ∀ (k k' : Fin 256), ridx_main_v1 (ridx_main_v10 i k) k' = (ix2 k k' : S256x256.Idx) := fun k k' =>
    funext fun a => by match a with | ⟨0, _⟩ => rfl | ⟨1, _⟩ => rfl
  rw [val_main_v15_apply, val_main_v12_apply, val_main_v10_apply, val_main_v11_apply, val_main_cst_1_apply,
    val_main_v14_apply, val_main_v13_apply, val_main_v9_apply, val_main_v8_apply, val_main_v6_apply, val_main_v5_apply,
    val_main_v4_apply, val_main_v7_apply, val_main_v3_apply, val_main_v2_apply, val_main_call0_v0_apply, val_main_cst_apply,
    val_main_call0_v1_apply, val_main_cst_0_apply]
  simp only [val_main_v0_apply, val_main_v1_apply, eq0, ew0, eq1, ew1]
  rfl

end Cert.ReferenceIdeal.RefValue
end
-- ==== Proof.ProjBody.lean ====
/-
  The first region's stored values, read at an index.

  A grid point of the first region loads one batch of the input, a [1, 2048, 256] block, and a whole [256, 256] weight matrix, and
  stores the [1, 2048, 256] block  q(0, t, o) = Σ_i x(0, t, i) · w(o, i).  In the body the input block is viewed as [2048, 256]
  (its unit axis dropped), both operands change float format (the identity on the extended reals), one matrix product contracts the
  last axis of each into a zero accumulator, and the product is viewed back as [1, 2048, 256] (a unit axis added).
-/
import proofs.«123300_j89309549953157_1_alg».proof.Proof.Gen.KernelIdeal.Skeleton
import proofs.«123300_j89309549953157_1_alg».proof.Proof.Spec
import Idealize.ShloMosaic.Lib.Pipeline.Value
import Idealize.ShloMosaic.Lib.ValueIdx
import Idealize.ShloMosaic.PureOps.Ideal.Laws

noncomputable section
namespace Cert.KernelIdeal.ProjBody
open Cert.KernelIdeal Cert.KernelIdeal.Gen Idealize.ShloMosaic Idealize.ShloMosaic.ValueIdx Cert.Scores

/-- Dropping the leading coordinate of (0, t, o) leaves (t, o). -/
theorem succ_ix3 (t : Fin 2048) (o : Fin 256) :
    (fun a : Fin 2 => (ix3 (0 : Fin 1) t o : S1x2048x256.Idx) a.succ) = (ix2 t o : S2048x256.Idx) :=
  funext fun a => by match a with | ⟨0, _⟩ => rfl | ⟨1, _⟩ => rfl

/-- Putting a leading 0 before (t, i) gives (0, t, i). -/
theorem cons_ix2 (t : Fin 2048) (i : Fin 256) :
    (Fin.cons ⟨0, Nat.one_pos⟩ (ix2 t i : S2048x256.Idx) : S1x2048x256.Idx) = ix3 (0 : Fin 1) t i :=
  funext fun a => by match a with | ⟨0, _⟩ => rfl | ⟨1, _⟩ => rfl | ⟨2, _⟩ => rfl

/-- The input block viewed as a matrix reads (t, i) at (0, t, i). -/
theorem pay1_at (v0 : Vec Ideal S1x2048x256 .f32) (t : Fin 2048) (i : Fin 256) :
    k0_pay1 (F := Ideal) v0 (ix2 t i) = v0 (ix3 0 t i) := by
  unfold k0_pay1
  refine (shapeCast_dropUnit_apply ![2048, 256] v0 _ (ix2 t i)).trans ?_
  rw [cons_ix2]

/-- The matrix product's operand indices, coordinate by coordinate: the left operand is read at (row of the output, contraction
    position), the right operand at (column of the output, contraction position) — each product contracts both operands' last axis. -/
theorem lhs_c0 (j : S2048x256.Idx) (q : dot_S2048x256_S256x256_S2048x256_1_1_0_0_n_n.contr.Idx) : (dot_S2048x256_S256x256_S2048x256_1_1_0_0_n_n.lhsIdx j q 0).val = (j 0).val := by
  unfold DotDims.lhsIdx
  rw [dif_neg (show ¬(0 : Fin S2048x256.rank) ∈ dot_S2048x256_S256x256_S2048x256_1_1_0_0_n_n.lhsBatch by decide),
    dif_pos (show (0 : Fin S2048x256.rank) ∈ dot_S2048x256_S256x256_S2048x256_1_1_0_0_n_n.lhsNonContracting by decide)]
  rfl
theorem lhs_c1 (j : S2048x256.Idx) (q : dot_S2048x256_S256x256_S2048x256_1_1_0_0_n_n.contr.Idx) : (dot_S2048x256_S256x256_S2048x256_1_1_0_0_n_n.lhsIdx j q 1).val = (q ⟨0, by decide⟩).val :=
  dot_S2048x256_S256x256_S2048x256_1_1_0_0_n_n.lhsIdx_val_of_single rfl j q
theorem rhs_c0 (j : S2048x256.Idx) (q : dot_S2048x256_S256x256_S2048x256_1_1_0_0_n_n.contr.Idx) : (dot_S2048x256_S256x256_S2048x256_1_1_0_0_n_n.rhsIdx j q 0).val = (j 1).val := by
  unfold DotDims.rhsIdx
  rw [dif_neg (show ¬(0 : Fin S256x256.rank) ∈ dot_S2048x256_S256x256_S2048x256_1_1_0_0_n_n.rhsBatch by decide),
    dif_pos (show (0 : Fin S256x256.rank) ∈ dot_S2048x256_S256x256_S2048x256_1_1_0_0_n_n.rhsNonContracting by decide)]
  rfl
theorem rhs_c1 (j : S2048x256.Idx) (q : dot_S2048x256_S256x256_S2048x256_1_1_0_0_n_n.contr.Idx) : (dot_S2048x256_S256x256_S2048x256_1_1_0_0_n_n.rhsIdx j q 1).val = (q ⟨0, by decide⟩).val :=
  dot_S2048x256_S256x256_S2048x256_1_1_0_0_n_n.rhsIdx_val_of_single rfl j q

/-- The left operand's index at output (t, o) and contraction position k is (t, k). -/
theorem lhs_at (t : Fin 2048) (o : Fin 256) (k : Fin 256) :
    dot_S2048x256_S256x256_S2048x256_1_1_0_0_n_n.lhsIdx (ix2 t o) ((contrEquiv1 dot_S2048x256_S256x256_S2048x256_1_1_0_0_n_n 256 rfl rfl).symm k) = (ix2 t k : S2048x256.Idx) := by
  have hk := contrEquiv1_symm_val dot_S2048x256_S256x256_S2048x256_1_1_0_0_n_n 256 rfl rfl k
  funext a; apply Fin.ext
  match a with
  | ⟨0, _⟩ => exact lhs_c0 _ _
  | ⟨1, _⟩ => exact (lhs_c1 _ _).trans hk

/-- The right operand's index there is (o, k). -/
theorem rhs_at (t : Fin 2048) (o : Fin 256) (k : Fin 256) :
    dot_S2048x256_S256x256_S2048x256_1_1_0_0_n_n.rhsIdx (ix2 t o) ((contrEquiv1 dot_S2048x256_S256x256_S2048x256_1_1_0_0_n_n 256 rfl rfl).symm k) = (ix2 o k : S256x256.Idx) := by
  have hk := contrEquiv1_symm_val dot_S2048x256_S256x256_S2048x256_1_1_0_0_n_n 256 rfl rfl k
  funext a; apply Fin.ext
  match a with
  | ⟨0, _⟩ => exact rhs_c0 _ _
  | ⟨1, _⟩ => exact (rhs_c1 _ _).trans hk

/-- The stored block at (0, t, o) is row `t` of the input block against row `o` of the weight matrix. -/
theorem pay2_at (v0 : Vec Ideal S1x2048x256 .f32) (v3 : Vec Ideal S256x256 .f32) (t : Fin 2048) (o : Fin 256) :
    k0_pay2 (F := Ideal) v0 v3 (ix3 0 t o) = ∑ i : Fin 256, v0 (ix3 0 t i) * v3 (ix2 o i) := by
  unfold k0_pay2
  refine (shapeCast_addUnit_apply ![2048, 256] _ _ (ix3 0 t o)).trans ?_
  rw [succ_ix3]
  show matmul dot_S2048x256_S256x256_S2048x256_1_1_0_0_n_n none (k0_pay1 v0) (truncf .bf16 v3 bitsLt_bf16_f32)
      (constant S2048x256 .f32 0x00000000#32) (ix2 t o) = _
  refine (Ideal.matmul_constant_zero_apply dot_S2048x256_S256x256_S2048x256_1_1_0_0_n_n none _ _ (ix2 t o)).trans ?_
  rw [← Equiv.sum_comp (contrEquiv1 dot_S2048x256_S256x256_S2048x256_1_1_0_0_n_n 256 rfl rfl).symm]
  refine Finset.sum_congr rfl fun k _ => ?_
  rw [lhs_at, rhs_at, pay1_at]
  rfl

end Cert.KernelIdeal.ProjBody
end
-- ==== Proof.ProjArray.lean ====
/-
  From blocks to arrays, first region: after its eight grid points, each of the two intermediate arrays is the projection of the
  input by one weight matrix.

  Point `t` reads batch `t` of the input and the whole of each weight matrix, and writes batch `t` of each output. So what a
  point writes back is a block of ONE function of the arrays the region found (`proj`), and the eight batches tile the output:
  every index lies in the block of the point that is its batch.
-/
import proofs.«123300_j89309549953157_1_alg».proof.Proof.KernelIdealFrameP
import proofs.«123300_j89309549953157_1_alg».proof.Proof.ProjBody
import Idealize.ShloMosaic.Lib.Pipeline.Value

set_option maxRecDepth 16384
noncomputable section
namespace Cert.KernelIdeal.ProjArray
open Cert.KernelIdeal Cert.KernelIdeal.Gen Cert.KernelIdeal.GenP Idealize.ShloMosaic Idealize.ShloMosaic.TcCoe Idealize.SL.Sem
open Idealize.ShloMosaic.ValueIdx Cert.Scores
open Idealize.ShloMosaic.Pipeline (Dat)

variable (V : (c : Dev nD) → (b : Ref sig .tc) → Buf (Elt Ideal) ((c : Thread nD τ).loc b))

/-- The zero offsets of a rank-3 block, as a constant function. -/
theorem hz3 : (![0, 0, 0] : Fin 3 → Nat) = fun _ => 0 := funext fun a => by fin_cases a <;> rfl
/-- The zero offsets of a rank-2 block, as a constant function. -/
theorem hz2 : (![0, 0] : Fin 2 → Nat) = fun _ => 0 := funext fun a => by fin_cases a <;> rfl

/-- The printed index maps over the grid: the input and the two outputs move with the batch on their first axis and nowhere else;
    the weight matrices do not move. -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- A block of the projection: if a [1, 2048, 256] block holds batch `b` of `X` and a [256, 256] block holds `W`, the body's stored
    value at (0, tt, o) is the projection of `X` by `W` at (b, tt, o). -/
theorem proj_block (X : SX.Idx → EReal) (W : SW.Idx → EReal) (x0 : Vec Ideal S1x2048x256 .f32) (x1 : Vec Ideal S256x256 .f32) (b : Fin 8)
    (hx : ∀ (tt : Fin 2048) (i : Fin 256), x0 (ix3 0 tt i) = X (ix3 b tt i))
    (hw : ∀ (o i : Fin 256), x1 (ix2 o i) = W (ix2 o i))
    (y : S1x2048x256.Idx) (k : SX.Idx) (hk0 : (k 0).val = b.val) (hk1 : (k 1).val = (y 1).val) (hk2 : (k 2).val = (y 2).val) :
    k0_pay2 (F := Ideal) x0 x1 y = proj X W k := by
  have h0 : (y 0).val < 1 := (y 0).isLt
  have h1 : (y 1).val < 2048 := (y 1).isLt
  have h2 : (y 2).val < 256 := (y 2).isLt
  obtain ⟨tt, o, rfl⟩ : ∃ (tt : Fin 2048) (o : Fin 256), y = (ix3 (0 : Fin 1) tt o : S1x2048x256.Idx) :=
    ⟨⟨(y 1).val, h1⟩, ⟨(y 2).val, h2⟩, funext fun a => by
      match a with
      | ⟨0, _⟩ => exact Fin.ext (by show (y 0).val = 0; omega)
      | ⟨1, _⟩ => rfl
      | ⟨2, _⟩ => rfl⟩
  obtain rfl : k = (ix3 b tt o : SX.Idx) := funext fun a => by
    match a with
    | ⟨0, _⟩ => exact Fin.ext hk0
    | ⟨1, _⟩ => exact Fin.ext hk1
    | ⟨2, _⟩ => exact Fin.ext hk2
  rw [ProjBody.pay2_at, proj_ix3]
  unfold projAt
  exact Finset.sum_congr rfl fun i _ => by rw [hx, hw]

/-- What point `t` writes back to the first output is block `t` of the projection by the first weight matrix. -/
theorem flushed3_eq (c : Dev nD) (t : Fin cfg0.N) :
    (dat0 (F := Ideal) V c).flushed 3 t = ((cfg0.win 3).blk t).view.read (Elt Ideal) (proj (V c main_arg0) (V c main_arg1)) := by
  show (cfg0.win 3).cut (grid0.coords t) ((dat0 V c).after 3 t) = _
  rw [after0_3]
  unfold out0_3
  rw [View.canon_unit_zero hz3]
  simp only [View.ld_unit_zero (S := S1x2048x256) hz3, View.ld_unit_zero (S := S256x256) hz2]
  obtain ⟨e00, e01, e02, e10, e11, e20, e21, e30, e31, e32, e40, e41, e42⟩ := idx_facts0 t
  funext j
  show k0_pay2 (iblk0 V c 0 t) (iblk0 V c 1 t) j = proj (V c main_arg0) (V c main_arg1) (((cfg0.win 3).blk t).view.emb j)
  refine proj_block (V c main_arg0) (V c main_arg1) (iblk0 V c 0 t) (iblk0 V c 1 t) (Fin.cast N_0 t) ?_ ?_ j _ ?_ ?_ ?_
  · intro tt i
    show V c main_arg0 (((cfg0.win 0).blk t).view.emb (ix3 0 tt i)) = V c main_arg0 (ix3 (Fin.cast N_0 t) tt i)
    refine congrArg (V c main_arg0) (funext fun a => Fin.ext ?_)
    match a with
    | ⟨0, _⟩ => show win0_0.index t (0 : Fin 3) * 1 + 1 * 0 = t.val; omega
    | ⟨1, _⟩ => show win0_0.index t (1 : Fin 3) * 2048 + 1 * tt.val = tt.val; omega
    | ⟨2, _⟩ => show win0_0.index t (2 : Fin 3) * 256 + 1 * i.val = i.val; omega
  · intro o i
    show V c main_arg1 (((cfg0.win 1).blk t).view.emb (ix2 o i)) = V c main_arg1 (ix2 o i)
    refine congrArg (V c main_arg1) (funext fun a => Fin.ext ?_)
    match a with
    | ⟨0, _⟩ => show win0_1.index t (0 : Fin 2) * 256 + 1 * o.val = o.val; omega
    | ⟨1, _⟩ => show win0_1.index t (1 : Fin 2) * 256 + 1 * i.val = i.val; omega
  · show win0_3.index t (0 : Fin 3) * 1 + 1 * (j 0).val = t.val
    have h0 : (j 0).val < 1 := (j 0).isLt
    omega
  · show win0_3.index t (1 : Fin 3) * 2048 + 1 * (j 1).val = (j 1).val; omega
  · show win0_3.index t (2 : Fin 3) * 256 + 1 * (j 2).val = (j 2).val; omega

/-- An index of the first projected array is in point `t`'s block iff each coordinate is in the block's range on its axis. -/
theorem mem_blk3 (t : Fin cfg0.N) (i : S8x2048x256.Idx) :
    i ∈ ((cfg0.win 3).blk t).view.set ↔ ∀ a : Fin 3, win0_3.index t a * S1x2048x256.size a ≤ (i a).val ∧ (i a).val < win0_3.index t a * S1x2048x256.size a + S1x2048x256.size a := by
  show i ∈ ((View.whole main_v0_0).slice (win0_3.rect t)).set ↔ _
  rw [View.set_slice_whole, Rect.mem_set_unit]
  exact Iff.rfl

/-- Every index lies in the block of the point that is its batch. -/
theorem cover3 (i : S8x2048x256.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 256 := (i 2).isLt
  refine ⟨Fin.cast N_0.symm ⟨(i 0).val, hi0⟩, flush0_3 _, ?_⟩
  rw [mem_blk3]
  obtain ⟨e00, e01, e02, e10, e11, e20, e21, e30, e31, e32, e40, e41, e42⟩ := idx_facts0 (Fin.cast N_0.symm ⟨(i 0).val, hi0⟩)
  have e30' : win0_3.index (Fin.cast N_0.symm ⟨(i 0).val, hi0⟩) (0 : Fin 3) = (i 0).val := e30
  have e40' : win0_4.index (Fin.cast N_0.symm ⟨(i 0).val, hi0⟩) (0 : Fin 3) = (i 0).val := e40
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 2048 ≤ (i 1).val ∧ (i 1).val < win0_3.index _ (1 : Fin 3) * 2048 + 2048; omega
  | ⟨2, _⟩ => show win0_3.index _ (2 : Fin 3) * 256 ≤ (i 2).val ∧ (i 2).val < win0_3.index _ (2 : Fin 3) * 256 + 256; omega

/-- After region 0 the first output array is the projection by the first weight matrix. -/
theorem final3 (c : Dev nD) : (dat0 (F := Ideal) V c).arrAt 3 cfg0.N = proj (V c main_arg0) (V c main_arg1) :=
  (dat0 V c).arrAt_eq_of_cover 3 (proj (V c main_arg0) (V c main_arg1)) (fun t _ => flushed3_eq V c t) cover3

/-- What point `t` writes back to the second output is block `t` of the projection by the second weight matrix. -/
theorem flushed4_eq (c : Dev nD) (t : Fin cfg0.N) :
    (dat0 (F := Ideal) V c).flushed 4 t = ((cfg0.win 4).blk t).view.read (Elt Ideal) (proj (V c main_arg0) (V c main_arg2)) := by
  show (cfg0.win 4).cut (grid0.coords t) ((dat0 V c).after 4 t) = _
  rw [after0_4]
  unfold out0_4
  rw [View.canon_unit_zero hz3]
  simp only [View.ld_unit_zero (S := S1x2048x256) hz3, View.ld_unit_zero (S := S256x256) hz2]
  obtain ⟨e00, e01, e02, e10, e11, e20, e21, e30, e31, e32, e40, e41, e42⟩ := idx_facts0 t
  funext j
  show k0_pay2 (iblk0 V c 0 t) (iblk0 V c 2 t) j = proj (V c main_arg0) (V c main_arg2) (((cfg0.win 4).blk t).view.emb j)
  refine proj_block (V c main_arg0) (V c main_arg2) (iblk0 V c 0 t) (iblk0 V c 2 t) (Fin.cast N_0 t) ?_ ?_ j _ ?_ ?_ ?_
  · intro tt i
    show V c main_arg0 (((cfg0.win 0).blk t).view.emb (ix3 0 tt i)) = V c main_arg0 (ix3 (Fin.cast N_0 t) tt i)
    refine congrArg (V c main_arg0) (funext fun a => Fin.ext ?_)
    match a with
    | ⟨0, _⟩ => show win0_0.index t (0 : Fin 3) * 1 + 1 * 0 = t.val; omega
    | ⟨1, _⟩ => show win0_0.index t (1 : Fin 3) * 2048 + 1 * tt.val = tt.val; omega
    | ⟨2, _⟩ => show win0_0.index t (2 : Fin 3) * 256 + 1 * i.val = i.val; omega
  · intro o i
    show V c main_arg2 (((cfg0.win 2).blk t).view.emb (ix2 o i)) = V c main_arg2 (ix2 o i)
    refine congrArg (V c main_arg2) (funext fun a => Fin.ext ?_)
    match a with
    | ⟨0, _⟩ => show win0_2.index t (0 : Fin 2) * 256 + 1 * o.val = o.val; omega
    | ⟨1, _⟩ => show win0_2.index t (1 : Fin 2) * 256 + 1 * i.val = i.val; omega
  · show win0_4.index t (0 : Fin 3) * 1 + 1 * (j 0).val = t.val
    have h0 : (j 0).val < 1 := (j 0).isLt
    omega
  · show win0_4.index t (1 : Fin 3) * 2048 + 1 * (j 1).val = (j 1).val; omega
  · show win0_4.index t (2 : Fin 3) * 256 + 1 * (j 2).val = (j 2).val; omega

/-- An index of the second projected array is in point `t`'s block iff each coordinate is in the block's range on its axis. -/
theorem mem_blk4 (t : Fin cfg0.N) (i : S8x2048x256.Idx) :
    i ∈ ((cfg0.win 4).blk t).view.set ↔ ∀ a : Fin 3, win0_4.index t a * S1x2048x256.size a ≤ (i a).val ∧ (i a).val < win0_4.index t a * S1x2048x256.size a + S1x2048x256.size a := by
  show i ∈ ((View.whole main_v0_1).slice (win0_4.rect t)).set ↔ _
  rw [View.set_slice_whole, Rect.mem_set_unit]
  exact Iff.rfl

/-- Every index lies in the block of the point that is its batch. -/
theorem cover4 (i : S8x2048x256.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 256 := (i 2).isLt
  refine ⟨Fin.cast N_0.symm ⟨(i 0).val, hi0⟩, flush0_4 _, ?_⟩
  rw [mem_blk4]
  obtain ⟨e00, e01, e02, e10, e11, e20, e21, e30, e31, e32, e40, e41, e42⟩ := idx_facts0 (Fin.cast N_0.symm ⟨(i 0).val, hi0⟩)
  have e30' : win0_3.index (Fin.cast N_0.symm ⟨(i 0).val, hi0⟩) (0 : Fin 3) = (i 0).val := e30
  have e40' : win0_4.index (Fin.cast N_0.symm ⟨(i 0).val, hi0⟩) (0 : Fin 3) = (i 0).val := e40
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 2048 ≤ (i 1).val ∧ (i 1).val < win0_4.index _ (1 : Fin 3) * 2048 + 2048; omega
  | ⟨2, _⟩ => show win0_4.index _ (2 : Fin 3) * 256 ≤ (i 2).val ∧ (i 2).val < win0_4.index _ (2 : Fin 3) * 256 + 256; omega

/-- After region 0 the second output array is the projection by the second weight matrix. -/
theorem final4 (c : Dev nD) : (dat0 (F := Ideal) V c).arrAt 4 cfg0.N = proj (V c main_arg0) (V c main_arg2) :=
  (dat0 V c).arrAt_eq_of_cover 4 (proj (V c main_arg0) (V c main_arg2)) (fun t _ => flushed4_eq V c t) cover4

end Cert.KernelIdeal.ProjArray
end
-- ==== Proof.ScoreBody.lean ====
/-
  The second region's stored values, read at an index.

  A grid point (batch, row tile, column tile) of the second region loads a [1, 1024, 256] block of each projected array and stores
  the [1, 1024, 1024] tile  e(0, r, c) = (Σ_o q(0, r, o) · k(0, c, o)) · s + mask(R, C),  where R = row tile · 1024 + r and
  C = column tile · 1024 + c are the global row and column: the body adds each tile's offset to a position counter in 32-bit
  words and compares the two sums as signed words, which is the comparison of the words of R and C.
-/
import proofs.«123300_j89309549953157_1_alg».proof.Proof.Gen.KernelIdeal.Skeleton
import proofs.«123300_j89309549953157_1_alg».proof.Proof.Spec
import Idealize.ShloMosaic.Lib.Pipeline.Value
import Idealize.ShloMosaic.Lib.ValueIdx
import Idealize.ShloMosaic.PureOps.Ideal.Laws

noncomputable section
namespace Cert.KernelIdeal.ScoreBody
open Cert.KernelIdeal Cert.KernelIdeal.Gen Idealize.ShloMosaic Idealize.ShloMosaic.ValueIdx Cert.Scores

/-- Dropping the leading coordinate of (0, r, c) leaves (r, c). -/
theorem succ_ix3 (r c : Fin 1024) :
    (fun a : Fin 2 => (ix3 (0 : Fin 1) r c : S1x1024x1024.Idx) a.succ) = (ix2 r c : S1024x1024.Idx) :=
  funext fun a => by match a with | ⟨0, _⟩ => rfl | ⟨1, _⟩ => rfl

/-- Putting a leading 0 before (r, o) gives (0, r, o). -/
theorem cons_ix2 (r : Fin 1024) (o : Fin 256) :
    (Fin.cons ⟨0, Nat.one_pos⟩ (ix2 r o : S1024x256.Idx) : S1x1024x256.Idx) = ix3 (0 : Fin 1) r o :=
  funext fun a => by match a with | ⟨0, _⟩ => rfl | ⟨1, _⟩ => rfl | ⟨2, _⟩ => rfl

/-- The matrix product's operand indices, coordinate by coordinate: the left operand is read at (row of the output, contraction
    position), the right operand at (column of the output, contraction position) — the product contracts both operands' last axis. -/
theorem lhs_c0 (j : S1024x1024.Idx) (q : dot_S1024x256_S1024x256_S1024x1024_1_1_0_0_n_n.contr.Idx) : (dot_S1024x256_S1024x256_S1024x1024_1_1_0_0_n_n.lhsIdx j q 0).val = (j 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl
theorem lhs_c1 (j : S1024x1024.Idx) (q : dot_S1024x256_S1024x256_S1024x1024_1_1_0_0_n_n.contr.Idx) : (dot_S1024x256_S1024x256_S1024x1024_1_1_0_0_n_n.lhsIdx j q 1).val = (q ⟨0, by decide⟩).val :=
  dot_S1024x256_S1024x256_S1024x1024_1_1_0_0_n_n.lhsIdx_val_of_single rfl j q
theorem rhs_c0 (j : S1024x1024.Idx) (q : dot_S1024x256_S1024x256_S1024x1024_1_1_0_0_n_n.contr.Idx) : (dot_S1024x256_S1024x256_S1024x1024_1_1_0_0_n_n.rhsIdx j q 0).val = (j 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl
theorem rhs_c1 (j : S1024x1024.Idx) (q : dot_S1024x256_S1024x256_S1024x1024_1_1_0_0_n_n.contr.Idx) : (dot_S1024x256_S1024x256_S1024x1024_1_1_0_0_n_n.rhsIdx j q 1).val = (q ⟨0, by decide⟩).val :=
  dot_S1024x256_S1024x256_S1024x1024_1_1_0_0_n_n.rhsIdx_val_of_single rfl j q

/-- The left operand's index at output (r, c) and contraction position k is (r, k). -/
theorem lhs_at (r c : Fin 1024) (k : Fin 256) :
    dot_S1024x256_S1024x256_S1024x1024_1_1_0_0_n_n.lhsIdx (ix2 r c) ((contrEquiv1 dot_S1024x256_S1024x256_S1024x1024_1_1_0_0_n_n 256 rfl rfl).symm k) = (ix2 r k : S1024x256.Idx) := by
  have hk := contrEquiv1_symm_val dot_S1024x256_S1024x256_S1024x1024_1_1_0_0_n_n 256 rfl rfl k
  funext a; apply Fin.ext
  match a with
  | ⟨0, _⟩ => exact lhs_c0 _ _
  | ⟨1, _⟩ => exact (lhs_c1 _ _).trans hk

/-- The right operand's index there is (c, k). -/
theorem rhs_at (r c : Fin 1024) (k : Fin 256) :
    dot_S1024x256_S1024x256_S1024x1024_1_1_0_0_n_n.rhsIdx (ix2 r c) ((contrEquiv1 dot_S1024x256_S1024x256_S1024x1024_1_1_0_0_n_n 256 rfl rfl).symm k) = (ix2 c k : S1024x256.Idx) := by
  have hk := contrEquiv1_symm_val dot_S1024x256_S1024x256_S1024x1024_1_1_0_0_n_n 256 rfl rfl k
  funext a; apply Fin.ext
  match a with
  | ⟨0, _⟩ => exact rhs_c0 _ _
  | ⟨1, _⟩ => exact (rhs_c1 _ _).trans hk

/-- A [1, 1024, 256] block viewed as [1024, 256] reads (r, o) at (0, r, o). -/
theorem drop_at (v : Vec Ideal S1x1024x256 .bf16) (r : Fin 1024) (o : Fin 256) :
    shapeCast S1024x256 v shapeCasts_S1x1024x256_S1024x256 (ix2 r o) = v (ix3 0 r o) := by
  refine (shapeCast_dropUnit_apply ![1024, 256] v _ (ix2 r o)).trans ?_
  rw [cons_ix2]

/-- Adding a tile's offset to a position inside the tile, in 32-bit words, is the word of the global position. -/
theorem word_offset (a n : Nat) : BitVec.ofNat 32 a + BitVec.ofNat 32 n * 1024#32 = BitVec.ofNat 32 (n * 1024 + a) := by
  rw [Nat.add_comm, BitVec.ofNat_add, BitVec.ofNat_mul]

/-- The stored tile at (0, r, c): row `r` of the first block against row `c` of the second, scaled, plus the mask at the global
    row and column. -/
theorem pay1_at (i : grid1.Coords) (v0 v2 : Vec Ideal S1x1024x256 .bf16) (r c : Fin 1024) :
    k1_pay1 (F := Ideal) i v0 v2 (ix3 0 r c)
      = (∑ o : Fin 256, v0 (ix3 0 r o) * v2 (ix3 0 c o)) * Ideal.ofBits .f32 0x3D800000#32
        + maskAt ((i 1).val * 1024 + r.val) ((i 2).val * 1024 + c.val) := by
  unfold k1_pay1
  dsimp only
  refine (shapeCast_addUnit_apply ![1024, 1024] _ _ (ix3 0 r c)).trans ?_
  rw [succ_ix3]
  refine congrArg₂ (· + ·) (congrArg (· * _) ?_) ?_
  · refine (Ideal.matmul_constant_zero_apply dot_S1024x256_S1024x256_S1024x1024_1_1_0_0_n_n none _ _ (ix2 r c)).trans ?_
    rw [← Equiv.sum_comp (contrEquiv1 dot_S1024x256_S1024x256_S1024x1024_1_1_0_0_n_n 256 rfl rfl).symm]
    refine Finset.sum_congr rfl fun k _ => ?_
    rw [lhs_at, rhs_at, drop_at, drop_at]
  · unfold maskAt
    show Scalar.select (IntOp.cmpi .slt
        (iota Kind.tc S1024x1024 32 [1] iota_S1024x1024_d1_w32 (ix2 r c) + BitVec.ofNat 32 (i 2).val * 1024#32)
        (iota Kind.tc S1024x1024 32 [0] iota_S1024x1024_d0_w32 (ix2 r c) + BitVec.ofNat 32 (i 1).val * 1024#32))
      (Ideal.ofBits .f32 0xCE6E6B28#32) (Ideal.ofBits .f32 0x00000000#32) = _
    rw [iota_single_apply, iota_single_apply]
    show Scalar.select (IntOp.cmpi .slt (BitVec.ofNat 32 c.val + BitVec.ofNat 32 (i 2).val * 1024#32)
        (BitVec.ofNat 32 r.val + BitVec.ofNat 32 (i 1).val * 1024#32)) _ _ = _
    rw [word_offset, word_offset]

end Cert.KernelIdeal.ScoreBody
end
-- ==== Proof.ScoreArray.lean ====
/-
  From tiles to the array, second region: after its 8 · 2 · 2 grid points the result array is the scores of the two arrays the
  region found.

  Point (batch, row tile, column tile) reads rows [row tile · 1024, +1024) of the first array and rows
  [column tile · 1024, +1024) of the second, both in its batch, and writes the [1024, 1024] tile at (row tile, column tile) of
  its batch. So what a point writes back is a tile of ONE function of the two arrays (`scoresOf`), and the tiles cover the
  result: an index lies in the tile of the point (its batch, its row / 1024, its column / 1024).
-/
import proofs.«123300_j89309549953157_1_alg».proof.Proof.KernelIdealFrameP
import proofs.«123300_j89309549953157_1_alg».proof.Proof.ScoreBody
import Idealize.ShloMosaic.Lib.Pipeline.Value

set_option maxRecDepth 16384
noncomputable section
namespace Cert.KernelIdeal.ScoreArray
open Cert.KernelIdeal Cert.KernelIdeal.Gen Cert.KernelIdeal.GenP Idealize.ShloMosaic Idealize.ShloMosaic.TcCoe Idealize.SL.Sem
open Idealize.ShloMosaic.ValueIdx Cert.Scores
open Idealize.ShloMosaic.Pipeline (Dat)

variable (V : (c : Dev nD) → (b : Ref sig .tc) → Buf (Elt Ideal) ((c : Thread nD τ).loc b))

/-- The zero offsets of a rank-3 block, as a constant function. -/
theorem hz3 : (![0, 0, 0] : Fin 3 → Nat) = fun _ => 0 := funext fun a => by fin_cases a <;> rfl

/-- The printed index maps over the grid (batch, row tile, column tile): the first input follows the batch and the row tile, the
    second the batch and the column tile, the output all three; and the coordinates' ranges. -/
theorem idx_facts1 : ∀ t : Fin cfg1.N,
    win1_0.index t (0 : Fin 3) = (grid1.coords t 0).val ∧ win1_0.index t (1 : Fin 3) = (grid1.coords t 1).val ∧ win1_0.index t (2 : Fin 3) = 0
    ∧ win1_1.index t (0 : Fin 3) = (grid1.coords t 0).val ∧ win1_1.index t (1 : Fin 3) = (grid1.coords t 2).val ∧ win1_1.index t (2 : Fin 3) = 0
    ∧ win1_2.index t (0 : Fin 3) = (grid1.coords t 0).val ∧ win1_2.index t (1 : Fin 3) = (grid1.coords t 1).val ∧ win1_2.index t (2 : Fin 3) = (grid1.coords t 2).val
    ∧ (grid1.coords t 0).val < 8 ∧ (grid1.coords t 1).val < 2 ∧ (grid1.coords t 2).val < 2 :=
  (by decide +kernel : ∀ t : Fin grid1.N, _)

/-- Every (batch, row tile, column tile) is some grid point's. -/
theorem idx_onto1 : ∀ (b : Fin 8) (qi ki : Fin 2), ∃ t : Fin cfg1.N,
    (grid1.coords t 0).val = b.val ∧ (grid1.coords t 1).val = qi.val ∧ (grid1.coords t 2).val = ki.val :=
  (by decide +kernel : ∀ (b : Fin 8) (qi ki : Fin 2), ∃ t : Fin grid1.N, _)

/-- A tile of the scores: if the two [1, 1024, 256] blocks hold rows `R r` of `Q` and rows `C c` of `K` in batch `b`, where
    `R` and `C` add the row tile's and the column tile's offsets, the body's stored value at (0, r, c) is the score at (b, R r, C c). -/
theorem score_block (Q K : SX.Idx → EReal) (i : grid1.Coords) (x0 x1 : Vec Ideal S1x1024x256 .bf16) (b : Fin 8)
    (R C : Fin 1024 → Fin 2048) (hR : ∀ r, (R r).val = (i 1).val * 1024 + r.val) (hC : ∀ c, (C c).val = (i 2).val * 1024 + c.val)
    (hq : ∀ (r : Fin 1024) (o : Fin 256), x0 (ix3 0 r o) = Q (ix3 b (R r) o))
    (hk : ∀ (c : Fin 1024) (o : Fin 256), x1 (ix3 0 c o) = K (ix3 b (C c) o))
    (y : S1x1024x1024.Idx) (k : SE.Idx) (hk0 : (k 0).val = b.val) (hk1 : (k 1).val = (i 1).val * 1024 + (y 1).val)
    (hk2 : (k 2).val = (i 2).val * 1024 + (y 2).val) :
    k1_pay1 (F := Ideal) i x0 x1 y = scoresOf Q K k := by
  have h0 : (y 0).val < 1 := (y 0).isLt
  have h1 : (y 1).val < 1024 := (y 1).isLt
  have h2 : (y 2).val < 1024 := (y 2).isLt
  obtain ⟨r, c, rfl⟩ : ∃ (r c : Fin 1024), y = (ix3 (0 : Fin 1) r c : S1x1024x1024.Idx) :=
    ⟨⟨(y 1).val, h1⟩, ⟨(y 2).val, h2⟩, funext fun a => by
      match a with
      | ⟨0, _⟩ => exact Fin.ext (by show (y 0).val = 0; omega)
      | ⟨1, _⟩ => rfl
      | ⟨2, _⟩ => rfl⟩
  obtain rfl : k = (ix3 b (R r) (C c) : SE.Idx) := funext fun a => by
    match a with
    | ⟨0, _⟩ => exact Fin.ext hk0
    | ⟨1, _⟩ => exact Fin.ext (hk1.trans (hR r).symm)
    | ⟨2, _⟩ => exact Fin.ext (hk2.trans (hC c).symm)
  rw [ScoreBody.pay1_at]
  show _ = scoreAt Q K b (R r) (C c)
  unfold scoreAt
  rw [hR, hC]
  refine congrArg₂ (· + ·) (congrArg (· * _) (Finset.sum_congr rfl fun o _ => ?_)) rfl
  rw [hq, hk]

/-- What point `t` writes back is tile `t` of the scores of the two arrays the region found. -/
theorem flushed2_eq (c : Dev nD) (t : Fin cfg1.N) :
    (dat1 (F := Ideal) V c).flushed 2 t = ((cfg1.win 2).blk t).view.read (Elt Ideal) (scoresOf (V c main_v0_0) (V c main_v0_1)) := by
  show (cfg1.win 2).cut (grid1.coords t) ((dat1 V c).after 2 t) = _
  rw [after1_2]
  unfold out1_2
  rw [View.canon_unit_zero hz3]
  simp only [View.ld_unit_zero (S := S1x1024x256) hz3]
  obtain ⟨e00, e01, e02, e10, e11, e12, e20, e21, e22, g0, g1, g2⟩ := idx_facts1 t
  funext j
  show k1_pay1 (grid1.coords t) (iblk1 V c 0 t) (iblk1 V c 1 t) j
    = scoresOf (V c main_v0_0) (V c main_v0_1) (((cfg1.win 2).blk t).view.emb j)
  refine score_block (V c main_v0_0) (V c main_v0_1) (grid1.coords t) (iblk1 V c 0 t) (iblk1 V c 1 t) ⟨(grid1.coords t 0).val, g0⟩
    (fun r => ⟨(grid1.coords t 1).val * 1024 + r.val, by have := r.isLt; omega⟩)
    (fun c => ⟨(grid1.coords t 2).val * 1024 + c.val, by have := c.isLt; omega⟩)
    (fun _ => rfl) (fun _ => rfl) ?_ ?_ j _ ?_ ?_ ?_
  · intro r o
    show V c main_v0_0 (((cfg1.win 0).blk t).view.emb (ix3 0 r o)) = V c main_v0_0 (ix3 _ _ o)
    refine congrArg (V c main_v0_0) (funext fun a => Fin.ext ?_)
    match a with
    | ⟨0, _⟩ => show win1_0.index t (0 : Fin 3) * 1 + 1 * 0 = (grid1.coords t 0).val; omega
    | ⟨1, _⟩ => show win1_0.index t (1 : Fin 3) * 1024 + 1 * r.val = (grid1.coords t 1).val * 1024 + r.val; omega
    | ⟨2, _⟩ => show win1_0.index t (2 : Fin 3) * 256 + 1 * o.val = o.val; omega
  · intro cc o
    show V c main_v0_1 (((cfg1.win 1).blk t).view.emb (ix3 0 cc o)) = V c main_v0_1 (ix3 _ _ o)
    refine congrArg (V c main_v0_1) (funext fun a => Fin.ext ?_)
    match a with
    | ⟨0, _⟩ => show win1_1.index t (0 : Fin 3) * 1 + 1 * 0 = (grid1.coords t 0).val; omega
    | ⟨1, _⟩ => show win1_1.index t (1 : Fin 3) * 1024 + 1 * cc.val = (grid1.coords t 2).val * 1024 + cc.val; omega
    | ⟨2, _⟩ => show win1_1.index t (2 : Fin 3) * 256 + 1 * o.val = o.val; omega
  · show win1_2.index t (0 : Fin 3) * 1 + 1 * (j 0).val = (grid1.coords t 0).val
    have h0 : (j 0).val < 1 := (j 0).isLt
    omega
  · show win1_2.index t (1 : Fin 3) * 1024 + 1 * (j 1).val = (grid1.coords t 1).val * 1024 + (j 1).val; omega
  · show win1_2.index t (2 : Fin 3) * 1024 + 1 * (j 2).val = (grid1.coords t 2).val * 1024 + (j 2).val; omega

/-- An index of the [8, 2048, 2048] array is in point `t`'s tile iff each coordinate is in the tile's range on its axis. -/
theorem mem_blk2 (t : Fin cfg1.N) (i : S8x2048x2048.Idx) :
    i ∈ ((cfg1.win 2).blk t).view.set ↔ ∀ a : Fin 3, win1_2.index t a * S1x1024x1024.size a ≤ (i a).val ∧ (i a).val < win1_2.index t a * S1x1024x1024.size a + S1x1024x1024.size a := by
  show i ∈ ((View.whole main_v1).slice (win1_2.rect t)).set ↔ _
  rw [View.set_slice_whole, Rect.mem_set_unit]
  exact Iff.rfl

/-- Every index lies in the tile of the point (its batch, its row / 1024, its column / 1024). -/
theorem cover2 (i : S8x2048x2048.Idx) : ∃ t : Fin cfg1.N, (cfg1.win 2).flush t = true ∧ i ∈ ((cfg1.win 2).blk t).view.set := by
  have hi0 : (i 0).val < 8 := (i 0).isLt
  have hi1 : (i 1).val < 2048 := (i 1).isLt
  have hi2 : (i 2).val < 2048 := (i 2).isLt
  obtain ⟨t, ht0, ht1, ht2⟩ := idx_onto1 ⟨(i 0).val, hi0⟩ ⟨(i 1).val / 1024, by omega⟩ ⟨(i 2).val / 1024, by omega⟩
  obtain ⟨e00, e01, e02, e10, e11, e12, e20, e21, e22, g0, g1, g2⟩ := idx_facts1 t
  have q0 : win1_2.index t (0 : Fin 3) = (i 0).val := e20.trans ht0
  have q1 : win1_2.index t (1 : Fin 3) = (i 1).val / 1024 := e21.trans ht1
  have q2 : win1_2.index t (2 : Fin 3) = (i 2).val / 1024 := e22.trans ht2
  refine ⟨t, flush1_2 t, ?_⟩
  rw [mem_blk2]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 1024 ≤ (i 2).val ∧ (i 2).val < win1_2.index t (2 : Fin 3) * 1024 + 1024; omega

/-- After region 1 the result array is the scores of the two arrays it found. -/
theorem final2 (c : Dev nD) : (dat1 (F := Ideal) V c).arrAt 2 cfg1.N = scoresOf (V c main_v0_0) (V c main_v0_1) :=
  (dat1 V c).arrAt_eq_of_cover 2 (scoresOf (V c main_v0_0) (V c main_v0_1)) (fun t _ => flushed2_eq V c t) cover2

end Cert.KernelIdeal.ScoreArray
end
-- ==== Proof.KernelRun.lean ====
/-
  The idealized kernel's run with its result named.

  The program is two regions. The first leaves, in two intermediate arrays, the projections of the input by the two weight
  matrices; the second finds those arrays and leaves the scores of them in the result array. Reading the result back through
  both regions gives the scores of the two projections of the input: the function `Cert.Scores.scores` of the three arguments.
-/
import proofs.«123300_j89309549953157_1_alg».proof.Proof.KernelIdealFrameP
import proofs.«123300_j89309549953157_1_alg».proof.Proof.ProjArray
import proofs.«123300_j89309549953157_1_alg».proof.Proof.ScoreArray
import proofs.«123300_j89309549953157_1_alg».proof.Proof.Spec

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Scores

section Named

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result array at what the second region's
    write-backs leave and the three arguments as launched: the two regions run one after the other, and the last thread state is
    read against the final memory at the result's buffer as well as at the arguments'. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Named

variable (m : (ℓ : Loc nD τ sig) → Buf (Elt Ideal) ℓ) (ρ : Dev nD → PrngReg)

/-- What the second region's write-backs leave in the result array is the scores of the arguments. The second region finds the
    two intermediate arrays at what the first region's write-backs left, which are the two projections of the input as launched. -/
theorem result_eq (c : Dev nD) :
    W2 m ρ c (Proc.devRef .tc main_v1)
      = scores (m ((c.tc : Thread nD τ).loc main_arg0)) (m ((c.tc : Thread nD τ).loc main_arg1)) (m ((c.tc : Thread nD τ).loc main_arg2)) := by
  have hq : V1 m ρ c main_v0_0 = proj (V0 m ρ c main_arg0) (V0 m ρ c main_arg1) :=
    (W1_arr m ρ c 3).trans (ProjArray.final3 (V0 m ρ) c)
  have hk : V1 m ρ c main_v0_1 = proj (V0 m ρ c main_arg0) (V0 m ρ c main_arg2) :=
    (W1_arr m ρ c 4).trans (ProjArray.final4 (V0 m ρ) c)
  refine (W2_arr m ρ c 2).trans ((ScoreArray.final2 (V1 m ρ) c).trans ?_)
  rw [hq, hk]
  rfl

/-- The run, read: the result array ends at the scores of the arguments, the arguments unchanged. -/
theorem run : θ_run defs (onTc (τ := τ) (main (F := Ideal))) ⟨m, fun _ => 0, ρ⟩ (fun r => ∀ c : Dev nD,
      r.2.mem ((c.tc : Thread nD τ).loc main_v1)
        = scores (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_named m ρ)

end Cert.KernelIdeal.Run

end
-- ==== Proof.lean ====
/-
  Masked attention scores: e[b, r, c] = (Σ_o q[b, r, o] · k[b, c, o]) · (1/16) + mask[r, c], where
  q[b, t, o] = Σ_i x[b, t, i] · Wq[o, i], k[b, t, o] = Σ_i x[b, t, i] · Wk[o, i], and mask[r, c] is -1e9 when c < r and 0
  otherwise. The kernel computes q and k in a first region (one batch per grid point) and the scores in a second
  (one 1024 × 1024 tile of one batch per grid point); the reference is three contractions, a multiplication and an addition
  of whole arrays. Over the extended reals both are the same nested sums with the same constants, so the two results
  agree index by index with no appeal to finiteness of the inputs.
-/
import proofs.«123300_j89309549953157_1_alg».proof.Defs
import proofs.«123300_j89309549953157_1_alg».proof.Proof.Gen.Kernel
import proofs.«123300_j89309549953157_1_alg».proof.Proof.Gen.KernelIdeal
import proofs.«123300_j89309549953157_1_alg».proof.Proof.Gen.ReferenceIdeal
import proofs.«123300_j89309549953157_1_alg».proof.Proof.Gen.Pre_finite_inputs
import proofs.«123300_j89309549953157_1_alg».proof.Proof.KernelFrameP
import proofs.«123300_j89309549953157_1_alg».proof.Proof.KernelIdealFrameP
import proofs.«123300_j89309549953157_1_alg».proof.Proof.Gen.ReferenceIdeal.Run
import proofs.«123300_j89309549953157_1_alg».proof.Proof.Gen.ReferenceIdeal.Read
import proofs.«123300_j89309549953157_1_alg».proof.Proof.RefScores
import proofs.«123300_j89309549953157_1_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the three arguments, the idealized kernel ends with its result array at the scores of
    the arguments, and the idealized reference with its result at its operations' composed term of them, which is the same
    function index by index. -/
theorem algebraic : Cert.algebraic_KernelIdeal_ReferenceIdeal := by
  intro m ρ m' ρ' _ hagree
  refine ⟨fun c => Cert.Scores.scores (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v15_eq,
    Cert.ReferenceIdeal.RefValue.ref_is_scores]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
